-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S8192 : Shape := ⟨1, ![8192]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1, .f32⟩
  | .hbm, ⟨3, _⟩ => ⟨S8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  natLt_1_32 : 1 < 32
  shapeCasts_S8192x1_S8192 : S8192x1.ShapeCasts S8192
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .i1⟩
  | .hbm, ⟨26, _⟩ => ⟨S_, .i1⟩
  | .hbm, ⟨27, _⟩ => ⟨S8192, .i1⟩
  | .hbm, ⟨28, _⟩ => ⟨S8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S8192x8192 : S_.BroadcastsInDim S8192x8192 (![] : Fin 0 → Fin S8192x8192.rank)
  reducesTo_S8192x8192_S8192_d1 : S8192x8192.ReducesTo [1] S8192
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Spec.lean ====
/-
  The specification both programs meet, over the extended reals.

  For arrays `X`, `Y` of 8192 rows of 1024 entries: a row is scaled by the larger of its Euclidean norm and a
  small constant `ε` (`unitRow`); the similarity of row `n` of `X` and row `m` of `Y` is the inner product of the
  two scaled rows (`sim`); and the result at `n` is 1 when some row `m` has similarity above the threshold `φ`, else 0
  (`indicator`). The constants are kept as their binary words: the same two words appear in both programs.
-/
import Idealize.ShloMosaic.PureOps.Ideal.Laws
import Idealize.ShloMosaic.Lib.ValueIdx

noncomputable section

namespace Cert.CosineAny

open Idealize.ShloMosaic Idealize.ShloMosaic.ValueIdx

/-- The clamp under a row's norm. -/
abbrev eps : EReal := Ideal.ofBits .f32 0x322BCC77#32
/-- The threshold a similarity is compared with. -/
abbrev phi : EReal := Ideal.ofBits .f32 0x3F666666#32

/-- Entry `d` of row `r` divided by the larger of the row's Euclidean norm and `ε`. -/
def unitRow {R : Nat} (x : (⟨2, ![R, 1024]⟩ : Shape).Idx → EReal) (r : Fin R) (d : Fin 1024) : EReal :=
  Ideal.div (x (ix2 r d)) (max (Ideal.sqrt (∑ k : Fin 1024, x (ix2 r k) * x (ix2 r k))) eps)

/-- Rows that agree entry by entry have the same scaled row. -/
theorem unitRow_congr {R R' : Nat} (x : (⟨2, ![R, 1024]⟩ : Shape).Idx → EReal) (x' : (⟨2, ![R', 1024]⟩ : Shape).Idx → EReal)
    (r : Fin R) (r' : Fin R') (h : ∀ k : Fin 1024, x (ix2 r k) = x' (ix2 r' k)) (d : Fin 1024) :
    unitRow x r d = unitRow x' r' d := by
  unfold unitRow
  rw [h d, Finset.sum_congr rfl fun k _ => by rw [h k]]

/-- The inner product of row `n` of `X` and row `m` of `Y`, both scaled. -/
def sim (X Y : (⟨2, ![8192, 1024]⟩ : Shape).Idx → EReal) (n m : Fin 8192) : EReal :=
  ∑ k : Fin 1024, unitRow X n k * unitRow Y m k

/-- Some row of `Y` is more similar to row `n` of `X` than the threshold. -/
def hit (X Y : (⟨2, ![8192, 1024]⟩ : Shape).Idx → EReal) (n : Fin 8192) : Prop :=
  ∃ m : Fin 8192, phi < sim X Y n m

/-- The number 1 or 0 a proposition's truth value denotes, through the one-bit word. -/
def bit01 (p : Prop) [Decidable p] : EReal := (((BitVec.ofBool (decide p)).toNat : ℝ) : EReal)

/-- Equivalent propositions denote the same number, whatever decision procedures read them. -/
theorem bit01_congr {p q : Prop} {dp : Decidable p} {dq : Decidable q} (h : p ↔ q) : @bit01 p dp = @bit01 q dq := by
  unfold bit01
  rw [decide_eq_decide.mpr h]

open Classical in
/-- The result: 1 where some row is above the threshold, 0 elsewhere. -/
def indicator (X Y : (⟨2, ![8192, 1024]⟩ : Shape).Idx → EReal) (n : Fin 8192) : EReal := bit01 (hit X Y n)

end Cert.CosineAny

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.Payload.lean ====
/-
  The kernel body's arithmetic, read entry by entry over the extended reals.

  The body computes four things: a column of bottom elements (the start of the running maximum); a block with every
  row divided by the larger of its norm and `ε` (`unitRow`); the running maximum joined with the row maxima of the
  products of the cached scaled block with the freshly scaled block (a matrix product contracted over the 1024
  entries of a row); and the comparison of the running maximum with the threshold, as the number 0 or 1.
-/
import proofs.«135659_j46995532153135_2_alg».proof.Proof.Gen.KernelIdeal.Skeleton
import proofs.«135659_j46995532153135_2_alg».proof.Proof.Spec
import proofs.«135659_j46995532153135_2_alg».proof.Proof.LibColumns
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx Cert.CosineAny Cert.LibColumns

/-- The source index a reduction along the second axis reads at row `r` and position `k`. -/
theorem lift_row (h : S1024x1024.Reduces [1] S1024) (r k : Fin 1024) : h.lift (ix1 r) k = ix2 r k :=
  funext fun a => Fin.ext (by match a with | ⟨0, _⟩ => rfl | ⟨1, _⟩ => rfl)

/-- The sum of squares along row `r`. -/
theorem rowSumSq (x : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 (mulf x x) 0x00000000#32 h hφ hacc (ix1 r) = ∑ k : Fin 1024, x (ix2 r k) * x (ix2 r k) :=
  (Ideal.multiReduction_add_single (mulf x x) 0x00000000#32 h hφ hacc (ix1 r)).trans
    (Finset.sum_congr rfl fun k _ => by rw [lift_row h r k]; rfl)

/-- The maximum along row `r`, from the accumulator's word. -/
theorem rowMax (v : FVec Ideal S1024x1024 .f32) (h : S1024x1024.Reduces [1] S1024) (hφ : FKind.Formats .f32)
    (hacc : (0xFF800000#32 : BitVec 32) = FKind.maximumf.neutral .f32 hφ) (r : Fin 1024) :
    multiReduction .maximumf [1] S1024 v 0xFF800000#32 h hφ hacc (ix1 r)
      = (Finset.univ : Finset (Fin 1024)).fold max (Ideal.ofBits .f32 0xFF800000#32) (fun q => v (ix2 r q)) :=
  (Ideal.multiReduction_maximumf_single v 0xFF800000#32 h hφ hacc (ix1 r)).trans
    (congrArg (fun f => (Finset.univ : Finset (Fin 1024)).fold max (Ideal.ofBits .f32 0xFF800000#32) f)
      (funext fun q => congrArg v (lift_row h r q)))

/-- The word of negative infinity denotes the bottom element. -/
theorem ofBits_neg_inf : Ideal.ofBits .f32 0xFF800000#32 = (⊥ : EReal) := by simp [Ideal.ofBits, Ideal.ieee]

/-- The column of clamped row norms of a block. -/
def clampNorm (x : FVec Ideal S1024x1024 .f32) : FVec Ideal S1024x1 .f32 :=
  maximumf (sqrt (shapeCast S1024x1 (multiReduction .add [1] S1024 (mulf x x) 0x00000000#32 reduces_S1024x1024_S1024 (.inl rfl) rfl)
    shapeCasts_S1024_S1024x1)) (broadcast S1024x1 (Scalar.ofBits .f32 0x322BCC77#32))

theorem clampNorm_apply (x : FVec Ideal S1024x1024 .f32) (r : Fin 1024) (u : Fin 1) :
    clampNorm x (ix2 r u) = max (Ideal.sqrt (∑ k : Fin 1024, x (ix2 r k) * x (ix2 r k))) eps := by
  unfold clampNorm
  show max (Ideal.sqrt (shapeCast S1024x1 _ shapeCasts_S1024_S1024x1 (ix2 r u))) eps = _
  refine congrArg (fun z => max (Ideal.sqrt z) eps) ?_
  exact (shapeCast_a_a1_apply _ _ r u).trans (rowSumSq x _ _ _ r)

/-- A block with every row divided by its clamped norm. -/
def scaled (x : FVec Ideal S1024x1024 .f32) : FVec Ideal S1024x1024 .bf16 :=
  truncf .bf16 (divf x (broadcastTo S1024x1024 (clampNorm x) broadcasts_S1024x1_S1024x1024)) bitsLt_bf16_f32

theorem scaled_apply (x : FVec Ideal S1024x1024 .f32) (r d : Fin 1024) : scaled x (ix2 r d) = unitRow x r d := by
  unfold scaled unitRow
  show Ideal.div (x (ix2 r d)) (broadcastTo S1024x1024 (clampNorm x) broadcasts_S1024x1_S1024x1024 (ix2 r d)) = _
  refine congrArg (Ideal.div (x (ix2 r d))) ?_
  exact (broadcastTo_a1_ab_apply _ _ r d).trans (clampNorm_apply x r 0)

/-- The payload that fills the cached operand is the scaled block. -/
theorem pay2_eq (x : Vec Ideal S1024x1024 .f32) : k0_pay2 (F := Ideal) x = scaled x := by
  unfold k0_pay2 scaled clampNorm
  exact shapeCast_self _ _

theorem pay2_apply (x : Vec Ideal S1024x1024 .f32) (r d : Fin 1024) : k0_pay2 (F := Ideal) x (ix2 r d) = unitRow x r d := by
  rw [pay2_eq]; exact scaled_apply x r d

/-- The start of the running maximum: every entry the bottom element. -/
theorem pay1_apply (j : S1024x1.Idx) : k0_pay1 (F := Ideal) j = (⊥ : EReal) := by
  unfold k0_pay1
  refine (congrFun (shapeCast_self _ _) j).trans ?_
  exact ofBits_neg_inf

abbrev D := dot_S1024x1024_S1024x1024_S1024x1024_1_1_0_0_n_n

theorem lhs0 (i : S1024x1024.Idx) (q : D.contr.Idx) : (D.lhsIdx i q 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs1 (i : S1024x1024.Idx) (q : D.contr.Idx) : (D.lhsIdx i q 1).val = (q ⟨0, by decide⟩).val :=
  D.lhsIdx_val_of_single rfl i q
theorem rhs0 (i : S1024x1024.Idx) (q : D.contr.Idx) : (D.rhsIdx i q 0).val = (i 1).val := by
  unfold DotDims.rhsIdx
  rw [dif_neg (show ¬(0 : Fin S1024x1024.rank) ∈ D.rhsBatch by decide), dif_pos (show (0 : Fin S1024x1024.rank) ∈ D.rhsNonContracting by decide)]
  rfl
theorem rhs1 (i : S1024x1024.Idx) (q : D.contr.Idx) : (D.rhsIdx i q 1).val = (q ⟨0, by decide⟩).val :=
  D.rhsIdx_val_of_single rfl i q

/-- The product of two blocks contracted along their rows, into a zero accumulator: entry `(r, q)` is the inner product
    of row `r` of the left block and row `q` of the right. -/
theorem rowsProduct_apply (a : FVec Ideal S1024x1024 .bf16) (b : FVec Ideal S1024x1024 .bf16) (r q : Fin 1024) :
    FloatOps.matmul D none a b (constant S1024x1024 .f32 0x00000000#32) (ix2 r q) = ∑ k : Fin 1024, a (ix2 r k) * b (ix2 q k) := by
  refine (Ideal.matmul_constant_zero_apply D none a b (ix2 r q)).trans ?_
  rw [← Equiv.sum_comp (ValueIdx.contrEquiv1 D 1024 rfl rfl).symm]
  refine Finset.sum_congr rfl fun k _ => ?_
  have hk := ValueIdx.contrEquiv1_symm_val D 1024 rfl rfl k
  have el : D.lhsIdx (ix2 r q) ((ValueIdx.contrEquiv1 D 1024 rfl rfl).symm k) = ix2 r k := funext fun ax => Fin.ext (by
    match ax with
    | ⟨0, _⟩ => exact lhs0 _ _
    | ⟨1, _⟩ => exact (lhs1 _ _).trans hk)
  have er : D.rhsIdx (ix2 r q) ((ValueIdx.contrEquiv1 D 1024 rfl rfl).symm k) = ix2 q k := funext fun ax => Fin.ext (by
    match ax with
    | ⟨0, _⟩ => exact rhs0 _ _
    | ⟨1, _⟩ => exact (rhs1 _ _).trans hk)
  rw [el, er]

/-- The column of the largest inner products of each cached row with the scaled rows of a fresh block. -/
def tileMax (y : FVec Ideal S1024x1024 .f32) (e : FVec Ideal S1024x1024 .bf16) : FVec Ideal S1024x1 .f32 :=
  shapeCast S1024x1 (multiReduction .maximumf [1] S1024 (matmul D none e (scaled y) (constant S1024x1024 .f32 0x00000000#32))
    0xFF800000#32 reduces_S1024x1024_S1024 (.inl rfl) rfl) shapeCasts_S1024_S1024x1

/-- The payload that updates the running maximum joins the earlier column with the tile's column. -/
theorem pay3_eq (y : Vec Ideal S1024x1024 .f32) (e : Vec Ideal S1024x1024 .bf16) (acc : Vec Ideal S1024x1 .f32) :
    k0_pay3 (F := Ideal) y e acc = maximumf acc (tileMax y e) := by
  unfold k0_pay3 tileMax scaled clampNorm
  exact shapeCast_self _ _

theorem tileMax_apply (y : FVec Ideal S1024x1024 .f32) (e : FVec Ideal S1024x1024 .bf16) (r : Fin 1024) (u : Fin 1) :
    tileMax y e (ix2 r u) = (Finset.univ : Finset (Fin 1024)).fold max ⊥ (fun q => ∑ k : Fin 1024, e (ix2 r k) * unitRow y q k) := by
  unfold tileMax
  refine (shapeCast_a_a1_apply _ _ r u).trans ?_
  refine (rowMax _ _ _ _ r).trans ?_
  rw [ofBits_neg_inf]
  refine congrArg (fun f => (Finset.univ : Finset (Fin 1024)).fold max ⊥ f) (funext fun q => ?_)
  refine (rowsProduct_apply e (scaled y) r q).trans ?_
  exact Finset.sum_congr rfl fun k _ => by rw [scaled_apply]

/-- The running maximum after a block: the earlier value joined with the largest inner product of the cached row with
    a scaled row of the fresh block. -/
theorem pay3_apply (y : Vec Ideal S1024x1024 .f32) (e : Vec Ideal S1024x1024 .bf16) (acc : Vec Ideal S1024x1 .f32)
    (r : Fin 1024) (u : Fin 1) :
    k0_pay3 (F := Ideal) y e acc (ix2 r u)
      = max (acc (ix2 r u)) ((Finset.univ : Finset (Fin 1024)).fold max ⊥ (fun q => ∑ k : Fin 1024, e (ix2 r k) * unitRow y q k)) := by
  rw [pay3_eq]
  exact congrArg (max (acc (ix2 r u))) (tileMax_apply y e r u)

/-- The comparison of a column with the threshold, as the numbers 0 and 1. -/
theorem pay4_apply (v : Vec Ideal S1024x1 .f32) (j : S1024x1.Idx) :
    k0_pay4 (F := Ideal) v j = (((((BitVec.ofBool (decide (phi < v j))).setWidth 32).toInt : ℝ)) : EReal) := rfl

end Cert.KernelIdeal.Payload

end
-- ==== Proof.Pieces.lean ====
/-
  What each control case of the kernel body leaves behind, as the body's arithmetic applied to what it loaded.

  The body runs in one of three cases. At the first column block of a row block it starts the running maximum at the
  bottom column, caches the scaled row block, and joins in the first tile. At a middle column block it joins the tile
  into the running maximum and keeps the cache. At the last column block it does the same and then writes the
  comparison of the running maximum with the threshold.
-/
import proofs.«135659_j46995532153135_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- First column block: the running maximum is the first tile joined onto the bottom column, over the freshly scaled cache. -/
theorem first_max (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (hc0 : cond0_0 i) (hc1 : ¬cond0_1 i)
    (x0 x1 : Vec F S1024x1024 .f32) :
    sout0_A_0 c i arg2 harg2 arg3 harg3 arg4 harg4 arg5 harg5 arg6 harg6 hc0 hc1 x0 x1 = k0_pay3 x1 (k0_pay2 x0) k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1) hz]
  simp only [View.readAt_eq_ld, harg2.read_unread, harg3.read_unread, View.readCov_unit_zero (S := S1024x1024) _ hz, View.readCov_unit_zero (S := S1024x1) _ hz, View.ld_unit_zero (S := S1024x1024) hz]

/-- First column block: the cache is the scaled row block. -/
theorem first_cache (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (hc0 : cond0_0 i) (hc1 : ¬cond0_1 i)
    (x0 x1 : Vec F S1024x1024 .f32) :
    sout0_A_1 c i arg2 harg2 arg3 harg3 arg4 harg4 arg5 harg5 arg6 harg6 hc0 hc1 x0 x1 = k0_pay2 x0 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_unit_zero hz]
  simp only [View.readAt_eq_ld, harg2.read_unread, View.ld_unit_zero (S := S1024x1024) hz]

/-- Middle column block: the tile joined into the running maximum. -/
theorem middle_max (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (hc0 : ¬cond0_0 i) (hc1 : ¬cond0_1 i)
    (x0 x1 : Vec F S1024x1024 .f32) (xs0 : Vec F S1024x1 .f32) (xs1 : Vec F S1024x1024 .bf16) :
    sout0_B_0 c i arg2 harg2 arg3 harg3 arg4 harg4 arg5 harg5 arg6 harg6 hc0 hc1 x0 x1 xs0 xs1 = k0_pay3 x1 xs1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  rw [View.canon_unit_zero hz]
  simp only [View.readAt_eq_ld, harg3.read_unread, harg5.read_unread, harg6.read_unread, View.ld_unit_zero (S := S1024x1024) hz, View.ld_unit_zero (S := S1024x1) hz]

/-- Last column block: the tile joined into the running maximum. -/
theorem last_max (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (hc0 : ¬cond0_0 i) (hc1 : cond0_1 i)
    (x0 x1 : Vec F S1024x1024 .f32) (xs0 : Vec F S1024x1 .f32) (xs1 : Vec F S1024x1024 .bf16) :
    sout0_C_0 c i arg2 harg2 arg3 harg3 arg4 harg4 arg5 harg5 arg6 harg6 hc0 hc1 x0 x1 xs0 xs1 = k0_pay3 x1 xs1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg3.read_unread, harg5.read_unread, harg6.read_unread, View.ld_unit_zero (S := S1024x1024) hz, View.ld_unit_zero (S := S1024x1) hz]

/-- Last column block: the output is the comparison of the final running maximum with the threshold. -/
theorem last_out (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1024 .bf16) (harg6 : arg6.IsWhole) (hc0 : ¬cond0_0 i) (hc1 : cond0_1 i)
    (x0 x1 : Vec F S1024x1024 .f32) (xs0 : Vec F S1024x1 .f32) (xs1 : Vec F S1024x1024 .bf16) :
    out0_C_2 c i arg2 harg2 arg3 harg3 arg4 harg4 arg5 harg5 arg6 harg6 hc0 hc1 x0 x1 xs0 xs1 = k0_pay4 (k0_pay3 x1 xs1 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg3.read_unread, harg5.read_unread, harg6.read_unread, View.readCov_unit_zero (S := S1024x1) _ hz, View.ld_unit_zero (S := S1024x1024) hz, View.ld_unit_zero (S := S1024x1) hz]

end Cert.KernelIdeal.Pieces

end
-- ==== Proof.Blocks.lean ====
/-
  Where the windows' blocks sit in their arrays.

  The grid has 64 points, numbered row block by row block: point `n` works on row block `n / 8` of the first array
  and on row block `n % 8` of the second. An entry `(r, k)` of the first window's block at point `n` is entry
  `(1024 · (n / 8) + r, k)` of the first array; of the second window's block, entry `(1024 · (n % 8) + r, k)` of the
  second array.
-/
import proofs.«135659_j46995532153135_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The block indices of the three windows at every point of the grid. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0)

/-- Row `r` of the row block point `n` works on, as a row of the whole first array. -/
def rowAt (n : ℕ) (hn : n < 64) (r : Fin 1024) : Fin 8192 := ⟨1024 * (n / 8) + r.val, by have := r.isLt; omega⟩

/-- Row `q` of the row block of the second array that point `n` works on. -/
def colAt (n : ℕ) (q : Fin 1024) : Fin 8192 := ⟨1024 * (n % 8) + q.val, by have := q.isLt; omega⟩

theorem lt64 (t : Fin cfg0.N) : t.val < 64 := lt_of_lt_of_eq t.isLt (show cfg0.N = 64 from N_0)

/-- The first window's block read at an entry. -/
theorem iblk0_apply (c : Dev nD) (t : Fin cfg0.N) (r k : Fin 1024) :
    (iblk m c 0 t : Vec F S1024x1024 .f32) (ix2 r k) = V m c main_arg0 (ix2 (rowAt t.val (lt64 t) r) k) := by
  have hi := index_facts t
  unfold iblk
  rw [View.read_apply]
  show V m c main_arg0 _ = V m c main_arg0 _
  congr 1
  funext a
  apply Fin.ext
  match a with
  | ⟨0, _⟩ => show win0_0.index t 0 * 1024 + 1 * r.val = 1024 * (t.val / 8) + r.val; rw [hi.1]; omega
  | ⟨1, _⟩ => show win0_0.index t 1 * 1024 + 1 * k.val = k.val; rw [hi.2.1]; omega

/-- The second window's block read at an entry. -/
theorem iblk1_apply (c : Dev nD) (t : Fin cfg0.N) (q k : Fin 1024) :
    (iblk m c 1 t : Vec F S1024x1024 .f32) (ix2 q k) = V m c main_arg1 (ix2 (colAt t.val q) k) := by
  have hi := index_facts t
  unfold iblk
  rw [View.read_apply]
  show V m c main_arg1 _ = V m c main_arg1 _
  congr 1
  funext a
  apply Fin.ext
  match a with
  | ⟨0, _⟩ => show win0_1.index t 0 * 1024 + 1 * q.val = 1024 * (t.val % 8) + q.val; rw [hi.2.2.1]; omega
  | ⟨1, _⟩ => show win0_1.index t 1 * 1024 + 1 * k.val = k.val; rw [hi.2.2.2.1]; omega

end Cert.KernelIdeal.Blocks

end
-- ==== Proof.AnyAbove.lean ====
/-
  Order and bit facts that join the two programs.

  Over a finite family of extended reals, the running maximum started at the bottom element exceeds a threshold exactly
  when some member of the family does; so the one-bit "or" over the family of the comparisons "member above threshold"
  is the comparison "maximum above threshold". A one-bit word widened to 32 bits and read as a signed integer is the
  same number as the one-bit word read unsigned.
-/
import Idealize.ShloMosaic.PureOps.Ideal.Laws

namespace Cert.AnyAbove

open Idealize.ShloMosaic

/-- A fold of `max` from the bottom element exceeds `φ` iff some member of the family does. -/
theorem fold_max_bot_gt_iff {ι : Type*} (s : Finset ι) (f : ι → EReal) (φ : EReal) :
    φ < s.fold max ⊥ f ↔ ∃ i ∈ s, φ < f i := by
  rw [Finset.lt_fold_max]
  constructor
  · rintro (h | h)
    · exact absurd h not_lt_bot
    · exact h
  · exact Or.inr

instance oriComm : Std.Commutative (IntOp.ori (w := 1)) := ⟨fun x y => by revert x y; decide⟩
instance oriAssoc : Std.Associative (IntOp.ori (w := 1)) := ⟨fun x y z => by revert x y z; decide⟩

theorem ori_ofBool (a b : Bool) : IntOp.ori (BitVec.ofBool a) (BitVec.ofBool b) = BitVec.ofBool (a || b) := by
  cases a <;> cases b <;> decide

/-- The "or" of the bits "`f i` is above `φ`", from the zero bit, is the bit "the maximum of the `f i` is above `φ`". -/
theorem fold_ori_gt {ι : Type*} [DecidableEq ι] (s : Finset ι) (f : ι → EReal) (φ : EReal) :
    s.fold IntOp.ori 0#1 (fun i => BitVec.ofBool (decide (φ < f i))) = BitVec.ofBool (decide (φ < s.fold max ⊥ f)) := by
  induction s using Finset.induction_on with
  | empty =>
    rw [Finset.fold_empty, Finset.fold_empty]
    have : ¬ φ < (⊥ : EReal) := not_lt_bot
    simp [this]
  | insert a s ha ih =>
    rw [Finset.fold_insert ha, Finset.fold_insert ha, ih, ori_ofBool]
    congr 1
    rw [Bool.eq_iff_iff]
    simp only [Bool.or_eq_true, decide_eq_true_eq, lt_max_iff]

/-- A one-bit word widened to 32 bits and read signed is the word read unsigned. -/
theorem toInt_setWidth_ofBool (b : Bool) :
    ((((BitVec.ofBool b).setWidth 32).toInt : ℝ) : EReal) = (((BitVec.ofBool b).toNat : ℝ) : EReal) := by
  cases b
  · have h1 : ((BitVec.ofBool false).setWidth 32).toInt = 0 := by decide
    have h2 : (BitVec.ofBool false).toNat = 0 := by decide
    rw [h1, h2]; simp
  · have h1 : ((BitVec.ofBool true).setWidth 32).toInt = 1 := by decide
    have h2 : (BitVec.ofBool true).toNat = 1 := by decide
    rw [h1, h2]; simp

end Cert.AnyAbove
-- ==== Proof.Running.lean ====
/-
  The running maximum, point by point.

  Along a row block the grid visits the eight column blocks in order. After the visit of column block `j`, the cache
  holds the scaled rows of the row block, and the running maximum at row `r` exceeds a number exactly when the
  similarity of that row with one of the first `1024 · (j + 1)` rows of the second array does: the first visit starts
  from the bottom element and joins the first tile, every later visit joins its tile. After the eighth visit this
  speaks of all 8192 rows, and the output written there is the 0/1 indicator of "some similarity is above the
  threshold".
-/
import proofs.«135659_j46995532153135_2_alg».proof.Proof.Payload
import proofs.«135659_j46995532153135_2_alg».proof.Proof.Pieces
import proofs.«135659_j46995532153135_2_alg».proof.Proof.Blocks
import proofs.«135659_j46995532153135_2_alg».proof.Proof.AnyAbove

noncomputable section

namespace Cert.KernelIdeal.Running

open Cert.KernelIdeal Cert.KernelIdeal.Gen Idealize.ShloMosaic Idealize.ShloMosaic.TcCoe Idealize.SL.Sem Idealize.ShloMosaic.ValueIdx
open Cert.CosineAny Cert.AnyAbove Cert.KernelIdeal.Payload Cert.KernelIdeal.Pieces Cert.KernelIdeal.Blocks

variable (m : (ℓ : Loc nD τ sig) → Buf (Elt Ideal) ℓ) (c : Dev nD)

/-- The two argument arrays as the region finds them. -/
abbrev X : S8192x1024.Idx → EReal := V m c main_arg0
abbrev Y : S8192x1024.Idx → EReal := V m c main_arg1

/-- The inner product of a cached row with a scaled row of the fresh block is a similarity of the whole arrays. -/
theorem tile_sim (t : Fin cfg0.N) (e : Vec Ideal S1024x1024 .bf16)
    (he : ∀ r k : Fin 1024, e (ix2 r k) = unitRow (X m c) (rowAt t.val (lt64 t) r) k) (r q : Fin 1024) :
    ∑ k : Fin 1024, e (ix2 r k) * unitRow (iblk m c 1 t : Vec Ideal S1024x1024 .f32) q k
      = sim (X m c) (Y m c) (rowAt t.val (lt64 t) r) (colAt t.val q) := by
  unfold sim
  refine Finset.sum_congr rfl fun k _ => ?_
  rw [he r k]
  exact congrArg (unitRow (X m c) (rowAt t.val (lt64 t) r) k * ·)
    (unitRow_congr (iblk m c 1 t : Vec Ideal S1024x1024 .f32) (Y m c) q (colAt t.val q) (fun k' => iblk1_apply m c t q k') k)

/-- Joining a tile: if the earlier column speaks of the rows before this column block, the joined column speaks of the
    rows up to its end. -/
theorem join_tile (t : Fin cfg0.N) (e : Vec Ideal S1024x1024 .bf16) (acc : Vec Ideal S1024x1 .f32)
    (he : ∀ r k : Fin 1024, e (ix2 r k) = unitRow (X m c) (rowAt t.val (lt64 t) r) k)
    (hacc : ∀ (r : Fin 1024) (φ : EReal), φ < acc (ix2 r (0 : Fin 1)) ↔
      ∃ mm : Fin 8192, mm.val < 1024 * (t.val % 8) ∧ φ < sim (X m c) (Y m c) (rowAt t.val (lt64 t) r) mm)
    (r : Fin 1024) (φ : EReal) :
    φ < k0_pay3 (F := Ideal) (iblk m c 1 t) e acc (ix2 r (0 : Fin 1)) ↔
      ∃ mm : Fin 8192, mm.val < 1024 * (t.val % 8 + 1) ∧ φ < sim (X m c) (Y m c) (rowAt t.val (lt64 t) r) mm := by
  rw [pay3_apply, lt_max_iff, hacc r φ, fold_max_bot_gt_iff]
  constructor
  · rintro (⟨mm, hlt, h⟩ | ⟨q, _, h⟩)
    · exact ⟨mm, by omega, h⟩
    · rw [tile_sim m c t e he r q] at h
      exact ⟨colAt t.val q, by show 1024 * (t.val % 8) + q.val < _; have := q.isLt; omega, h⟩
  · rintro ⟨mm, hlt, h⟩
    by_cases hm : mm.val < 1024 * (t.val % 8)
    · exact Or.inl ⟨mm, hm, h⟩
    · have hq : mm.val - 1024 * (t.val % 8) < 1024 := by omega
      refine Or.inr ⟨⟨mm.val - 1024 * (t.val % 8), hq⟩, Finset.mem_univ _, ?_⟩
      rw [tile_sim m c t e he r]
      have hmm : colAt t.val ⟨mm.val - 1024 * (t.val % 8), hq⟩ = mm :=
        Fin.ext (by show 1024 * (t.val % 8) + (mm.val - 1024 * (t.val % 8)) = mm.val; omega)
      rw [hmm]; exact h

/-- What holds after the body at point `n`: the cache is the scaled row block, and the running maximum speaks of the
    rows of the second array seen so far. -/
structure Inv (n : ℕ) (hn : n < cfg0.N) : Prop where
  cache : ∀ r k : Fin 1024,
    (outsAt0 m c n hn).2.2 (ix2 r k) = unitRow (X m c) (rowAt n (lt_of_lt_of_eq hn (show cfg0.N = 64 from N_0)) r) k
  run : ∀ (r : Fin 1024) (φ : EReal), φ < (outsAt0 m c n hn).2.1 (ix2 r (0 : Fin 1)) ↔
    ∃ mm : Fin 8192, mm.val < 1024 * (n % 8 + 1)
      ∧ φ < sim (X m c) (Y m c) (rowAt n (lt_of_lt_of_eq hn (show cfg0.N = 64 from N_0)) r) mm

/-- The scaled first block, as rows of the first array. -/
theorem cache_rows (t : Fin cfg0.N) (r k : Fin 1024) :
    k0_pay2 (F := Ideal) (iblk m c 0 t) (ix2 r k) = unitRow (X m c) (rowAt t.val (lt64 t) r) k :=
  (pay2_apply (iblk m c 0 t) r k).trans
    (unitRow_congr (iblk m c 0 t : Vec Ideal S1024x1024 .f32) (X m c) r (rowAt t.val (lt64 t) r) (fun k' => iblk0_apply m c t r k') k)

set_option maxHeartbeats 1000000 in
/-- What a first visit leaves: the first tile joined onto the bottom column, over the freshly scaled cache. -/
theorem at_first (t : Fin cfg0.N) (h0 : t.val % 8 = 0) :
    (outsAt0 m c t.val t.isLt).2.1 = k0_pay3 (iblk m c 1 t) (k0_pay2 (iblk m c 0 t)) (k0_pay1 (F := Ideal))
      ∧ (outsAt0 m c t.val t.isLt).2.2 = k0_pay2 (iblk m c 0 t) := by
  have h1 : ¬t.val % 8 = 7 := by omega
  rw [outsAt0_A m c t h0 h1]
  dsimp only
  exact ⟨first_max (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    first_cache (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)⟩

set_option maxHeartbeats 1000000 in
/-- What a later visit leaves: its tile joined into the running maximum of the visit before, the cache kept. -/
theorem at_later (t : Fin cfg0.N) (h0 : ¬t.val % 8 = 0) :
    (outsAt0 m c t.val t.isLt).2.1 = k0_pay3 (iblk m c 1 t) (outsAt0 m c (t.val - 1) (Nat.lt_of_le_of_lt (Nat.sub_le _ _) t.isLt)).2.2 (outsAt0 m c (t.val - 1) (Nat.lt_of_le_of_lt (Nat.sub_le _ _) t.isLt)).2.1
      ∧ (outsAt0 m c t.val t.isLt).2.2 = (outsAt0 m c (t.val - 1) (Nat.lt_of_le_of_lt (Nat.sub_le _ _) t.isLt)).2.2 := by
  by_cases h1 : t.val % 8 = 7
  · rw [outsAt0_C m c t h0 h1]
    dsimp only [sout0_C_1]
    exact ⟨last_max (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, rfl⟩
  · rw [outsAt0_B m c t h0 h1]
    dsimp only [sout0_B_1]
    exact ⟨middle_max (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, rfl⟩

set_option maxHeartbeats 1000000 in
/-- What the last visit writes out: the comparison of the running maximum it leaves. -/
theorem at_last_out (t : Fin cfg0.N) (h1 : t.val % 8 = 7) :
    (outsAt0 m c t.val t.isLt).1 = k0_pay4 (outsAt0 m c t.val t.isLt).2.1 := by
  have h0 : ¬t.val % 8 = 0 := by omega
  rw [outsAt0_C m c t h0 h1]
  dsimp only
  exact (last_out (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2).trans
    (congrArg k0_pay4 (last_max (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2).symm)

/-- The first visit of a row block. -/
theorem inv_first (t : Fin cfg0.N) (h0 : t.val % 8 = 0) : Inv m c t.val t.isLt := by
  obtain ⟨e1, e2⟩ := at_first m c t h0
  refine ⟨fun r k => by rw [e2]; exact cache_rows m c t r k, fun r φ => ?_⟩
  rw [e1]
  exact join_tile m c t (k0_pay2 (iblk m c 0 t)) (k0_pay1 (F := Ideal)) (cache_rows m c t)
    (fun r φ => by
      rw [pay1_apply]
      constructor
      · intro h; exact absurd h not_lt_bot
      · rintro ⟨mm, hlt, _⟩; rw [h0] at hlt; omega) r φ

/-- A later visit, over what the visit before left. -/
theorem inv_next (t : Fin cfg0.N) (h0 : ¬t.val % 8 = 0)
    (ih : Inv m c (t.val - 1) (Nat.lt_of_le_of_lt (Nat.sub_le _ _) t.isLt)) : Inv m c t.val t.isLt := by
  have hrow : ∀ r : Fin 1024, rowAt (t.val - 1) (lt_of_lt_of_eq (Nat.lt_of_le_of_lt (Nat.sub_le _ _) t.isLt) (show cfg0.N = 64 from N_0)) r
      = rowAt t.val (lt64 t) r := fun r =>
    Fin.ext (by show 1024 * ((t.val - 1) / 8) + r.val = 1024 * (t.val / 8) + r.val; omega)
  have hcol : (t.val - 1) % 8 + 1 = t.val % 8 := by omega
  have he : ∀ r k : Fin 1024, (outsAt0 m c (t.val - 1) (Nat.lt_of_le_of_lt (Nat.sub_le _ _) t.isLt)).2.2 (ix2 r k) = unitRow (X m c) (rowAt t.val (lt64 t) r) k := fun r k => by
    rw [ih.cache r k, hrow r]
  have hacc : ∀ (r : Fin 1024) (φ : EReal), φ < (outsAt0 m c (t.val - 1) (Nat.lt_of_le_of_lt (Nat.sub_le _ _) t.isLt)).2.1 (ix2 r (0 : Fin 1)) ↔
      ∃ mm : Fin 8192, mm.val < 1024 * (t.val % 8) ∧ φ < sim (X m c) (Y m c) (rowAt t.val (lt64 t) r) mm := fun r φ => by
    rw [ih.run r φ, hrow r, hcol]
  obtain ⟨e1, e2⟩ := at_later m c t h0
  refine ⟨fun r k => by rw [e2]; exact he r k, fun r φ => ?_⟩
  rw [e1]
  exact join_tile m c t _ _ he hacc r φ

/-- The invariant at every point, by induction along the grid. -/
theorem inv : ∀ (n : ℕ) (hn : n < cfg0.N), Inv m c n hn
  | 0, hn => inv_first m c ⟨0, hn⟩ (Nat.zero_mod 8)
  | n + 1, hn => by
    by_cases h0 : (n + 1) % 8 = 0
    · exact inv_first m c ⟨n + 1, hn⟩ h0
    · exact inv_next m c ⟨n + 1, hn⟩ h0 (inv n (Nat.lt_of_succ_lt hn))

/-- What the last visit of a row block writes: the 0/1 indicator of its rows. -/
theorem out_last (t : Fin cfg0.N) (h1 : t.val % 8 = 7) (r : Fin 1024) :
    (outsAt0 m c t.val t.isLt).1 (ix2 r (0 : Fin 1)) = indicator (X m c) (Y m c) (rowAt t.val (lt64 t) r) := by
  rw [at_last_out m c t h1, pay4_apply, toInt_setWidth_ofBool]
  unfold indicator
  refine bit01_congr ?_
  rw [(inv m c t.val t.isLt).run r phi, h1]
  unfold hit
  constructor
  · rintro ⟨mm, _, h⟩; exact ⟨mm, h⟩
  · rintro ⟨mm, h⟩; exact ⟨mm, by have := mm.isLt; omega, h⟩

end Cert.KernelIdeal.Running

end
-- ==== Proof.Final.lean ====
/-
  From the written-back blocks to the result.

  The kernel's output array is a column of 8192 entries in eight blocks of 1024; block `i` is written back once, after
  the last visit of row block `i` (grid point `8·i + 7`), and holds the 0/1 indicators of that row block's rows. The
  eight blocks tile the column, so the column ends holding the indicator of every row. The host then reads the column
  as a plain vector of 8192 entries: entry `n` is the column's entry `(n, 0)`.
-/
import proofs.«135659_j46995532153135_2_alg».proof.Proof.Running
import proofs.«135659_j46995532153135_2_alg».proof.Proof.LibColumns
import Idealize.ShloMosaic.Lib.Pipeline.Value
import Idealize.ShloMosaic.Lib.StableHlo.Run

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)
open Cert.CosineAny Cert.LibColumns Cert.KernelIdeal.Blocks Cert.KernelIdeal.Running

variable (m : (ℓ : Loc nD τ sig) → Buf (Elt Ideal) ℓ) (ρ : Dev nD → PrngReg) (c : Dev nD)

/-- The column the region's output array ends holding: the indicator of each row. -/
def column : S8192x1.Idx → EReal := fun i => indicator (X m c) (Y m c) ⟨(i 0).val, idx2_lt0 i⟩

/-- The vector the program returns. -/
def result : S8192.Idx → EReal := fun i => indicator (X m c) (Y m c) ⟨(i 0).val, (i 0).isLt⟩

/-- A block of indicators of row block `t / 8`, written back at `t`, is that block of the column. -/
theorem block_eq (t : Fin cfg0.N) (B : Vec Ideal S1024x1 .f32)
    (hB : ∀ r : Fin 1024, B (ix2 r (0 : Fin 1)) = indicator (X m c) (Y m c) (rowAt t.val (lt64 t) r)) :
    (cfg0.win 2).cut (grid0.coords t) B = ((cfg0.win 2).blk t).view.read (Elt Ideal) (column m c) := by
  obtain ⟨-, -, -, -, e4, -⟩ := index_facts t
  funext j
  rw [View.read_apply]
  have hy : ((cfg0.win 2).xinj (grid0.coords t) j : S1024x1.Idx)
      = ix2 (((cfg0.win 2).xinj (grid0.coords t) j : S1024x1.Idx) 0) (0 : Fin 1) := by
    funext a
    match a with
    | ⟨0, _⟩ => rfl
    | ⟨1, h1⟩ =>
      have hlt : (((cfg0.win 2).xinj (grid0.coords t) j : S1024x1.Idx) ⟨1, h1⟩).val < 1 :=
        (((cfg0.win 2).xinj (grid0.coords t) j : S1024x1.Idx) ⟨1, h1⟩).isLt
      exact Fin.ext (Nat.lt_one_iff.mp hlt)
  refine (congrArg B hy).trans ((hB _).trans ?_)
  unfold column
  refine congrArg (indicator (X m c) (Y m c)) (Fin.ext ?_)
  show 1024 * (t.val / 8) + (j 0).val = win0_2.index t (0 : Fin 2) * 1024 + 1 * (j 0).val
  rw [e4]; omega

/-- What a write-back writes is its block of the column. -/
theorem flushed_eq (t : Fin cfg0.N) (hf : (cfg0.win 2).flush t = true) :
    (dats m 0 c).flushed 2 t = ((cfg0.win 2).blk t).view.read (Elt Ideal) (column m c) := by
  have h7 : t.val % 8 = 7 := (flush0_2 t).mp hf
  show (cfg0.win 2).cut (grid0.coords t) ((dats m 0 c).after 2 t) = _
  rw [after0_2]
  exact block_eq m c t _ (out_last m c t h7)

/-- An index of the column is in point `t`'s block iff each coordinate is in the block's range. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- The eight written-back blocks tile the column, so it ends holding the indicator of every row. -/
theorem final : (dats m 0 c).arrAt 2 cfg0.N = column m c :=
  (dats m 0 c).arrAt_eq_of_cover 2 (column m c) (flushed_eq m c) fun i => by
    have hi0 : (i 0).val < 8192 := (i 0).isLt
    have hi1 : (i 1).val < 1 := (i 1).isLt
    have hN : cfg0.N = 64 := N_0
    have ht : 8 * ((i 0).val / 1024) + 7 < cfg0.N := by omega
    obtain ⟨-, -, -, -, e4, e5⟩ := index_facts ⟨8 * ((i 0).val / 1024) + 7, ht⟩
    refine ⟨⟨8 * ((i 0).val / 1024) + 7, ht⟩, (flush0_2 _).mpr (by show (8 * ((i 0).val / 1024) + 7) % 8 = 7; omega), ?_⟩
    rw [mem_blk]
    intro a
    match a with
    | ⟨0, _⟩ =>
      show win0_2.index ⟨8 * ((i 0).val / 1024) + 7, ht⟩ (0 : Fin 2) * 1024 ≤ (i 0).val
        ∧ (i 0).val < win0_2.index ⟨8 * ((i 0).val / 1024) + 7, ht⟩ (0 : Fin 2) * 1024 + 1024
      rw [e4]
      show (8 * ((i 0).val / 1024) + 7) / 8 * 1024 ≤ (i 0).val ∧ (i 0).val < (8 * ((i 0).val / 1024) + 7) / 8 * 1024 + 1024
      omega
    | ⟨1, _⟩ =>
      show win0_2.index ⟨8 * ((i 0).val / 1024) + 7, ht⟩ (1 : Fin 2) * 1 ≤ (i 1).val
        ∧ (i 1).val < win0_2.index ⟨8 * ((i 0).val / 1024) + 7, ht⟩ (1 : Fin 2) * 1 + 1
      rw [e5]; omega

/-- The column read as a vector: entry `n` is the column's entry `(n, 0)`. -/
theorem column_as_vector (h : S8192x1.ShapeCasts S8192) : shapeCast S8192 (column m c) h = result m c := by
  funext i
  obtain ⟨n, rfl⟩ : ∃ n : Fin 8192, i = ix1 n := ⟨i 0, eq_ix1 i⟩
  exact shapeCast_a1_a_apply (column m c) h n

end Cert.KernelIdeal.Final

end
-- ==== Proof.KernelRun.lean ====
/-
  The idealized kernel's run, read: the returned vector is the indicator of every row, and the two argument arrays
  end as they began.
-/
import proofs.«135659_j46995532153135_2_alg».proof.Proof.Final

noncomputable section

namespace Cert.KernelIdeal.KernelRun

open Cert.KernelIdeal Cert.KernelIdeal.Gen Idealize.ShloMosaic Idealize.ShloMosaic.TcCoe Idealize.SL.Sem Idealize.ShloMosaic.ValueIdx
open Idealize.ShloMosaic.Pipeline (Dat)
open Cert.CosineAny Cert.KernelIdeal.Final Cert.KernelIdeal.Running

variable (m : (ℓ : Loc nD τ sig) → Buf (Elt Ideal) ℓ) (ρ : Dev nD → PrngReg) (c : Dev nD)

/-- After the region the output array's buffer holds the column of indicators. -/
theorem column_left :
    Pipeline.withArrays (cfgs 0).spec c (V0 m c) (fun w => (dats m 0 c).arrAt w (cfgs 0).N) (Proc.devRef .tc main_v0) = column m c :=
  (Pipeline.withArrays_arr spec0 launch0.win.arr_inj c _ _ 2).trans (final m c)

/-- What the host's reading of the column leaves in the returned buffer. -/
theorem tail_eq : Pipeline.afterTail₀ cfgs (dats m) 0 (V0 m) [hostOps1] c main_v1 = result m c := by
  unfold Pipeline.afterTail₀
  show StableHlo.after hostOps1 _ (Proc.devRef .tc main_v1) = _
  after_results
  funext i
  show shapeCast S8192 (Pipeline.withArrays (cfgs 0).spec c (V0 m c) (fun w => (dats m 0 c).arrAt w (cfgs 0).N) (Proc.devRef .tc main_v0))
    shapeCasts_S8192x1_S8192 i = result m c i
  rw [column_left m c]
  exact congrFun (column_as_vector m c _) i

/-- Every weakly fair execution of the idealized kernel ends with the indicator vector in its result and its arguments
    unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.RefSide.lean ====
/-
  The reference program is the specification.

  The reference scales both arrays row by row, takes all 8192 × 8192 inner products, compares each with the
  threshold, joins each row's comparisons by "or", and converts the resulting bit to a number. Read entry by entry this
  is the indicator of "some similarity in the row is above the threshold": the "or" of the comparisons is the
  comparison of the row's maximum (the order fact), which holds exactly when some member is above.
-/
import proofs.«135659_j46995532153135_2_alg».proof.Proof.Gen.ReferenceIdeal.Read
import proofs.«135659_j46995532153135_2_alg».proof.Proof.Spec
import proofs.«135659_j46995532153135_2_alg».proof.Proof.AnyAbove
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.CosineAny Cert.AnyAbove

/-- The first array's scaled rows, as the host computes them. -/
theorem scaled0_apply (X : (⟨S8192x1024, .f32⟩ : BufTy).Contents (Elt Ideal)) (n : Fin 8192) (k : Fin 1024) :
    val_main_v7 (F := Ideal) X (ix2 n k) = unitRow X n k := by
  have hidx : ∀ k' : Fin 1024, idx_main_call0_v1 (idx_main_call0_v2 (idx_main_v6 (ix2 n k))) k' = ix2 n k' := fun k' =>
    funext fun a => Fin.ext (by match a with | ⟨0, _⟩ => rfl | ⟨1, _⟩ => rfl)
  rw [val_main_v7_apply, val_main_v6_apply, val_main_v2_apply, val_main_v0_apply, val_main_call0_v2_apply,
    val_main_call0_v1_apply, val_main_v1_apply, val_main_cst_apply, val_main_call0_cst_apply]
  unfold unitRow
  simp only [hidx, val_main_call0_v0_apply, Ideal.hostDivf_def, Ideal.maximumf_def, Ideal.hostUnary_sqrt_def, Ideal.ofBits_def,
    Ideal.mulf_def, Ideal.ofBits_zero_f32, zero_add]

/-- The second array's scaled rows, as the host computes them. -/
theorem scaled1_apply (Y : (⟨S8192x1024, .f32⟩ : BufTy).Contents (Elt Ideal)) (n : Fin 8192) (k : Fin 1024) :
    val_main_v9 (F := Ideal) Y (ix2 n k) = unitRow Y n k := by
  have hidx : ∀ k' : Fin 1024, idx_main_call1_v1 (idx_main_call1_v2 (idx_main_v8 (ix2 n k))) k' = ix2 n k' := fun k' =>
    funext fun a => Fin.ext (by match a with | ⟨0, _⟩ => rfl | ⟨1, _⟩ => rfl)
  rw [val_main_v9_apply, val_main_v8_apply, val_main_v5_apply, val_main_v3_apply, val_main_call1_v2_apply,
    val_main_call1_v1_apply, val_main_v4_apply, val_main_cst_0_apply, val_main_call1_cst_apply]
  unfold unitRow
  simp only [hidx, val_main_call1_v0_apply, Ideal.hostDivf_def, Ideal.maximumf_def, Ideal.hostUnary_sqrt_def, Ideal.ofBits_def,
    Ideal.mulf_def, Ideal.ofBits_zero_f32, zero_add]

/-- The host's product of the two scaled arrays is the similarity. -/
theorem sim_apply (X Y : (⟨S8192x1024, .f32⟩ : BufTy).Contents (Elt Ideal)) (n mm : Fin 8192) :
    val_main_v10 (F := Ideal) X Y (ix2 n mm) = sim X Y n mm := by
  have hl : ∀ k : Fin 1024, lidx_main_v10 (ix2 n mm) k = ix2 n k := fun k =>
    funext fun a => Fin.ext (by match a with | ⟨0, _⟩ => rfl | ⟨1, _⟩ => rfl)
  have hr : ∀ k : Fin 1024, ridx_main_v10 (ix2 n mm) k = ix2 mm k := fun k =>
    funext fun a => Fin.ext (by match a with | ⟨0, _⟩ => rfl | ⟨1, _⟩ => rfl)
  rw [val_main_v10_apply]
  unfold sim
  exact Finset.sum_congr rfl fun k _ => by rw [hl k, hr k, scaled0_apply, scaled1_apply]

/-- A similarity compared with the threshold. -/
theorem above_apply (X Y : (⟨S8192x1024, .f32⟩ : BufTy).Contents (Elt Ideal)) (n mm : Fin 8192) :
    val_main_v12 (F := Ideal) X Y (ix2 n mm) = BitVec.ofBool (decide (phi < sim X Y n mm)) := by
  rw [val_main_v12_apply, val_main_v11_apply, val_main_cst_1_apply, sim_apply]
  rfl

/-- The source index the "or" along the second axis reads at row `n` and position `mm`. -/
theorem lift_row (h : S8192x8192.Reduces [1] S8192) (n mm : Fin 8192) : h.lift (ix1 n) mm = ix2 n mm :=
  funext fun a => Fin.ext (by match a with | ⟨0, _⟩ => rfl | ⟨1, _⟩ => rfl)

/-- A row's comparisons joined by "or": the bit "the row's largest similarity is above the threshold". -/
theorem any_apply (X Y : (⟨S8192x1024, .f32⟩ : BufTy).Contents (Elt Ideal)) (n : Fin 8192) :
    val_main_v13 (F := Ideal) X Y (ix1 n)
      = BitVec.ofBool (decide (phi < (Finset.univ : Finset (Fin 8192)).fold max ⊥ (fun mm => sim X Y n mm))) := by
  unfold val_main_v13
  have hred : S8192x8192.Reduces [1] S8192 := by decide
  refine (Host.reduce_eq_fold_single IntOp.ori (val_main_v12 (F := Ideal) X Y) (val_main_c (F := Ideal))
    reducesTo_S8192x8192_S8192_d1 hred h_S_ (ix1 n)).trans ?_
  rw [val_main_c_apply]
  refine Eq.trans ?_ (fold_ori_gt Finset.univ (fun mm => sim X Y n mm) phi)
  refine congrArg (fun f => (Finset.univ : Finset (Fin 8192)).fold IntOp.ori 0#1 f) (funext fun mm => ?_)
  exact (congrArg (val_main_v12 (F := Ideal) X Y) (lift_row hred n mm)).trans (above_apply X Y n mm)

/-- The reference's result is the indicator of every row. -/
theorem result_apply (X Y : (⟨S8192x1024, .f32⟩ : BufTy).Contents (Elt Ideal)) (n : Fin 8192) :
    val_main_v14 (F := Ideal) X Y (ix1 n) = indicator X Y n := by
  rw [val_main_v14_apply, any_apply]
  unfold indicator
  show bit01 (phi < (Finset.univ : Finset (Fin 8192)).fold max ⊥ (fun mm => sim X Y n mm)) = _
  refine bit01_congr ?_
  rw [fold_max_bot_gt_iff]
  unfold hit
  constructor
  · rintro ⟨mm, _, h⟩; exact ⟨mm, h⟩
  · rintro ⟨mm, h⟩; exact ⟨mm, Finset.mem_univ _, h⟩

end Cert.ReferenceIdeal.RefValue

end
-- ==== Proof.lean ====
/-
  The kernel marks, for each of 8192 rows of a first array, whether some row of a second array has cosine similarity
  with it above a threshold; the reference computes the same marks from the full similarity matrix.

  Over the extended reals both programs scale every row by the larger of its norm and the same small constant, take
  inner products of scaled rows, and compare with the same threshold. The kernel keeps, per row, a running maximum
  over the column blocks and compares it once at the end; the reference compares every similarity and joins the
  comparisons by "or". A maximum over a finite family exceeds a number exactly when some member does, so the two
  results are the same 0/1 vector. No finiteness of the inputs is needed for this: only the order of the extended reals
  is used, and both sides apply the same operations to the same entries.

  The three frame claims are the generated frame runs (the reference's from its generated run), the idealization
  rewrote nothing, and the equality of results is assembled here from the kernel's run read as the indicator vector
  and the reference's run read as the same vector.
-/
import proofs.«135659_j46995532153135_2_alg».proof.Defs
import proofs.«135659_j46995532153135_2_alg».proof.Proof.Gen.Kernel
import proofs.«135659_j46995532153135_2_alg».proof.Proof.Gen.Kernel.Frame
import proofs.«135659_j46995532153135_2_alg».proof.Proof.Gen.KernelIdeal
import proofs.«135659_j46995532153135_2_alg».proof.Proof.Gen.KernelIdeal.Frame
import proofs.«135659_j46995532153135_2_alg».proof.Proof.Gen.ReferenceIdeal
import proofs.«135659_j46995532153135_2_alg».proof.Proof.Gen.ReferenceIdeal.Run
import proofs.«135659_j46995532153135_2_alg».proof.Proof.Gen.ReferenceIdeal.Read
import proofs.«135659_j46995532153135_2_alg».proof.Proof.Gen.Pre_finite_inputs
import proofs.«135659_j46995532153135_2_alg».proof.Proof.KernelRun
import proofs.«135659_j46995532153135_2_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the indicator vector of the same arrays. -/
theorem algebraic : Cert.algebraic_KernelIdeal_ReferenceIdeal := by
  intro m ρ m' ρ' _ hagree
  refine ⟨fun c => Cert.KernelIdeal.Final.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  funext i
  obtain ⟨n, rfl⟩ : ∃ n : Fin 8192, i = ix1 n := ⟨i 0, eq_ix1 i⟩
  exact Cert.ReferenceIdeal.RefValue.result_apply _ _ n

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
